-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S2048x512 : Shape := ⟨2, ![2048, 512]⟩
abbrev S1024x512 : Shape := ⟨2, ![1024, 512]⟩
abbrev S2048x1024 : Shape := ⟨2, ![2048, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S1024x512, .f32⟩
  | .local _ .vmem, ⟨3, _⟩ => ⟨S1024x512, .f32⟩
  | .local _ .vmem, ⟨4, _⟩ => ⟨S2048x1024, .f32⟩
  | .local _ .vmem, ⟨5, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S2048x1024_S2048x1024 : S2048x1024.ShapeCasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S4096x4096.size a
  hwx0_1 : ∀ i : grid0.Coords, EltTy.bits .f32 = 32 ∨ (Rect.block (s := S4096x4096) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]

class Facts₀ : Prop where
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.StepAtIndex.lean ====
/-
  One grid point's arithmetic, read at an entry of the output block.

  At a grid point the body holds a [2048, 512] block `a` of the left operand, a [1024, 512] block `b` of the right
  operand and the [2048, 1024] output block `acc` as the point before left it, and stores `acc + a · bᵀ`. With floats
  read as extended reals the narrowing of the two operands before the product is the identity, the reshape of `acc`
  to its own shape is the identity, and the product into a zero accumulator is the plain sum of products over the
  block's 512 contraction positions. So the entry stored at row `r`, column `c` is

      acc[r, c] + Σ_{k < 512} a[r, k] · b[c, k],

  and the block the first point of a run stores over — the zero splat — is `0` at every entry.
-/
import proofs.«135002_j68015102099869_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.StepAtIndex

open Cert.KernelIdeal Cert.KernelIdeal.Gen Idealize.ShloMosaic Idealize.ShloMosaic.ValueIdx

/-! ## Which operand entries a product term reads

The contraction runs over the second axis of both operands: output entry `(r, c)` at contraction position `k` reads
the left block at `(r, k)` and the right block at `(c, k)`. -/

theorem lhs_row (j : S2048x1024.Idx) (q : dot_S2048x512_S1024x512_S2048x1024_1_1_0_0_n_n.contr.Idx) :
    (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide),
    dif_pos (show (0 : Fin S2048x512.rank) ∈ dot_S2048x512_S1024x512_S2048x1024_1_1_0_0_n_n.lhsNonContracting by decide)]
  rfl

theorem lhs_col (j : S2048x1024.Idx) (q : dot_S2048x512_S1024x512_S2048x1024_1_1_0_0_n_n.contr.Idx) :
    (dot_S2048x512_S1024x512_S2048x1024_1_1_0_0_n_n.lhsIdx j q 1).val = (q ⟨0, by decide⟩).val :=
  dot_S2048x512_S1024x512_S2048x1024_1_1_0_0_n_n.lhsIdx_val_of_single rfl j q

theorem rhs_row (j : S2048x1024.Idx) (q : dot_S2048x512_S1024x512_S2048x1024_1_1_0_0_n_n.contr.Idx) :
    (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide),
    dif_pos (show (0 : Fin S1024x512.rank) ∈ dot_S2048x512_S1024x512_S2048x1024_1_1_0_0_n_n.rhsNonContracting by decide)]
  rfl

theorem rhs_col (j : S2048x1024.Idx) (q : dot_S2048x512_S1024x512_S2048x1024_1_1_0_0_n_n.contr.Idx) :
    (dot_S2048x512_S1024x512_S2048x1024_1_1_0_0_n_n.rhsIdx j q 1).val = (q ⟨0, by decide⟩).val :=
  dot_S2048x512_S1024x512_S2048x1024_1_1_0_0_n_n.rhsIdx_val_of_single rfl j q

/-! ## The product of the two blocks at an entry -/

/-- The block product into the zero accumulator, at entry `(r, c)`: the sum over the 512 contraction positions of the
    left block's row `r` times the right block's row `c`. -/
theorem block_product_at (a : FVec Ideal S2048x512 .bf16) (b : FVec Ideal S1024x512 .bf16) (r : Fin 2048) (c : Fin 1024) :
    matmul dot_S2048x512_S1024x512_S2048x1024_1_1_0_0_n_n none a b (constant (F := Ideal) S2048x1024 .f32 0x00000000#32) (ix2 r c)
      = ∑ k : Fin 512, a (ix2 r k) * b (ix2 c k) := by
  simp only [matmul]
  rw [Ideal.matmul_constant_zero_apply,
    ← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 r c)
      ((contrEquiv1 dot_S2048x512_S1024x512_S2048x1024_1_1_0_0_n_n 512 rfl rfl).symm k) = ix2 r k :=
    funext fun x => Fin.ext (by
      match x with
      | ⟨0, _⟩ => exact lhs_row _ _
      | ⟨1, _⟩ => exact (lhs_col _ _).trans hk)
  have er : dot_S2048x512_S1024x512_S2048x1024_1_1_0_0_n_n.rhsIdx (ix2 r c)
      ((contrEquiv1 dot_S2048x512_S1024x512_S2048x1024_1_1_0_0_n_n 512 rfl rfl).symm k) = ix2 c k :=
    funext fun x => Fin.ext (by
      match x with
      | ⟨0, _⟩ => exact rhs_row _ _
      | ⟨1, _⟩ => exact (rhs_col _ _).trans hk)
  rw [el, er]

/-! ## What a point stores -/

/-- The entry a point stores at `(r, c)`: what the point before left there plus the block product's entry. -/
theorem step_at (a : Vec Ideal S2048x512 .f32) (b : Vec Ideal S1024x512 .f32) (acc : Vec Ideal S2048x1024 .f32)
    (r : Fin 2048) (c : Fin 1024) :
    k0_pay2 (F := Ideal) a b acc (ix2 r c) = acc (ix2 r c) + ∑ k : Fin 512, a (ix2 r k) * b (ix2 c k) := by
  unfold k0_pay2
  rw [addf_apply, shapeCast_self, block_product_at]
  rfl

/-- The block a run's first point adds into is zero at every entry. -/
theorem zero_block_at (y : S2048x1024.Idx) : k0_pay1 (F := Ideal) y = 0 := by
  unfold k0_pay1
  exact Ideal.ofBits_zero_f32

end Cert.KernelIdeal.StepAtIndex

end
-- ==== Proof.BlocksAtIndex.lean ====
/-
  The two operands' blocks at a grid point, read at an entry off the argument arrays.

  The grid is 4 × 4 × 8, walked with the contraction axis innermost: point `t` is row tile `t / 32`, column tile
  `t / 8 % 4`, contraction step `t % 8`. The left operand's window takes the [2048, 512] block (row tile, step) of
  the [8192, 4096] array, the right operand's window the [1024, 512] block (column tile, step) of the [4096, 4096]
  array. An entry `(r, k)` of a block is the array's entry at (block index × block size + r, step × 512 + k).

  Array entries are named here by natural-number coordinates (`atNat`, zero outside the array), so that a point's
  contribution can be written for every natural `t` without carrying bounds.
-/
import proofs.«135002_j68015102099869_2_alg».proof.Proof.Gen.KernelIdeal.Frame
import Idealize.ShloMosaic.Lib.ValueIdx

noncomputable section

namespace Cert.KernelIdeal.BlocksAtIndex

open Cert.KernelIdeal Cert.KernelIdeal.Gen Idealize.ShloMosaic Idealize.ShloMosaic.TcCoe Idealize.SL.Sem
open Idealize.ShloMosaic.ValueIdx

/-- A two-axis array of extended reals read at natural coordinates: its entry inside, `0` outside. -/
def atNat (n0 n1 : ℕ) (A : (⟨2, ![n0, n1]⟩ : Shape).Idx → EReal) (a b : ℕ) : EReal :=
  if h : a < n0 ∧ b < n1 then A (ix2 ⟨a, h.1⟩ ⟨b, h.2⟩) else 0

theorem atNat_of_lt (n0 n1 : ℕ) (A : (⟨2, ![n0, n1]⟩ : Shape).Idx → EReal) (a b : ℕ) (ha : a < n0) (hb : b < n1) :
    atNat n0 n1 A a b = A (ix2 ⟨a, ha⟩ ⟨b, hb⟩) := dif_pos ⟨ha, hb⟩

/-- At an index's own coordinates `atNat` is the array's entry. -/
theorem atNat_val (n0 n1 : ℕ) (A : (⟨2, ![n0, n1]⟩ : Shape).Idx → EReal) (a : Fin n0) (b : Fin n1) :
    atNat n0 n1 A a.val b.val = A (ix2 a b) := atNat_of_lt n0 n1 A a.val b.val a.isLt b.isLt

/-- The printed index maps, decided once over the grid's 128 points: the left window's block index is
    (row tile, step), the right window's (column tile, step). -/
theorem index_facts : ∀ t : Fin cfg0.N,
    win0_0.index t (0 : Fin 2) = t.val / 32 ∧ win0_0.index t (1 : Fin 2) = t.val % 8
    ∧ win0_1.index t (0 : Fin 2) = t.val / 8 % 4 ∧ win0_1.index t (1 : Fin 2) = t.val % 8 :=
  (by decide +kernel : ∀ t : Fin grid0.N, _)

variable (m : (ℓ : Loc nD τ sig) → Buf (Elt Ideal) ℓ)

/-- The left operand's block at point `t`, entry `(r, k)`: the first argument array at row
    `(t / 32) · 2048 + r`, column `(t % 8) · 512 + k`. -/
theorem left_block_at (c : Dev nD) (t : Fin cfg0.N) (r : Fin 2048) (k : Fin 512) :
    iblk m c 0 t (ix2 r k)
      = atNat 8192 4096 (m ((c : Thread nD τ).loc main_arg0)) (t.val / 32 * 2048 + r.val) (t.val % 8 * 512 + k.val) := by
  obtain ⟨e0, e1, -, -⟩ := index_facts t
  have hN : t.val < 128 := lt_of_lt_of_eq t.isLt (show cfg0.N = 128 from N_0)
  rw [atNat_of_lt 8192 4096 _ _ _ (by omega) (by omega)]
  show V m c main_arg0 (((cfg0.win 0).blk t).view.emb (ix2 r k)) = _
  refine congrArg (m ((c : Thread nD τ).loc main_arg0)) (funext fun a => Fin.ext ?_)
  match a with
  | ⟨0, _⟩ =>
    show win0_0.index t (0 : Fin 2) * 2048 + 1 * r.val = t.val / 32 * 2048 + r.val
    rw [e0]; omega
  | ⟨1, _⟩ =>
    show win0_0.index t (1 : Fin 2) * 512 + 1 * k.val = t.val % 8 * 512 + k.val
    rw [e1]; omega

/-- The right operand's block at point `t`, entry `(c', k)`: the second argument array at row
    `(t / 8 % 4) · 1024 + c'`, column `(t % 8) · 512 + k`. -/
theorem right_block_at (c : Dev nD) (t : Fin cfg0.N) (c' : Fin 1024) (k : Fin 512) :
    iblk m c 1 t (ix2 c' k)
      = atNat 4096 4096 (m ((c : Thread nD τ).loc main_arg1)) (t.val / 8 % 4 * 1024 + c'.val) (t.val % 8 * 512 + k.val) := by
  obtain ⟨-, -, e0, e1⟩ := index_facts t
  have hN : t.val < 128 := lt_of_lt_of_eq t.isLt (show cfg0.N = 128 from N_0)
  rw [atNat_of_lt 4096 4096 _ _ _ (by omega) (by omega)]
  show V m c main_arg1 (((cfg0.win 1).blk t).view.emb (ix2 c' k)) = _
  refine congrArg (m ((c : Thread nD τ).loc main_arg1)) (funext fun a => Fin.ext ?_)
  match a with
  | ⟨0, _⟩ =>
    show win0_1.index t (0 : Fin 2) * 1024 + 1 * c'.val = t.val / 8 % 4 * 1024 + c'.val
    rw [e0]; omega
  | ⟨1, _⟩ =>
    show win0_1.index t (1 : Fin 2) * 512 + 1 * k.val = t.val % 8 * 512 + k.val
    rw [e1]; omega

end Cert.KernelIdeal.BlocksAtIndex

end
-- ==== Proof.FoldAtIndex.lean ====
/-
  A run of eight grid points, unrolled at an entry of its output block.

  The output block (row tile `i`, column tile `j`) is worked on by the eight consecutive grid points
  `8·(4i + j) … 8·(4i + j) + 7`, one per 512-wide step of the contraction: the first stores the zero block plus its
  block product, each later one adds its block product to what the point before left. So after the run's last
  point the block's entry at place `(r, c')` is zero plus the eight points' contributions there — each
  contribution the products of one row of the left array and one row of the right array over the 512 columns of the
  point's contraction step.
-/
import proofs.«135002_j68015102099869_2_alg».proof.Proof.Gen.KernelIdeal.Value
import proofs.«135002_j68015102099869_2_alg».proof.Proof.StepAtIndex
import proofs.«135002_j68015102099869_2_alg».proof.Proof.BlocksAtIndex

noncomputable section

namespace Cert.KernelIdeal.FoldAtIndex

open Cert.KernelIdeal Cert.KernelIdeal.Gen Cert.KernelIdeal.Value Idealize.ShloMosaic Idealize.ShloMosaic.TcCoe Idealize.SL.Sem
open Idealize.ShloMosaic.ValueIdx Cert.KernelIdeal.StepAtIndex Cert.KernelIdeal.BlocksAtIndex

variable (m : (ℓ : Loc nD τ sig) → Buf (Elt Ideal) ℓ)

/-- Point `n`'s contribution to the entry at place `(r, c')` of the output block it works on: the products of the
    left array's row `(n / 32)·2048 + r` and the right array's row `(n / 8 % 4)·1024 + c'` over the 512 columns of
    contraction step `n % 8`. -/
def addend (c : Dev nD) (n r c' : ℕ) : EReal :=
  ∑ k : Fin 512,
    atNat 8192 4096 (m ((c : Thread nD τ).loc main_arg0)) (n / 32 * 2048 + r) (n % 8 * 512 + k.val)
      * atNat 4096 4096 (m ((c : Thread nD τ).loc main_arg1)) (n / 8 % 4 * 1024 + c') (n % 8 * 512 + k.val)

/-- What a run's first point leaves at an entry of the block: zero plus the point's contribution. -/
theorem reset_at (c : Dev nD) (n : ℕ) (h : n < cfg0.N) (y : S2048x1024.Idx) :
    reset2 m c n h y = 0 + addend m c n (y 0).val (y 1).val := by
  obtain ⟨r, c', rfl⟩ : ∃ (r : Fin 2048) (c' : Fin 1024), y = ix2 r c' := ⟨y 0, y 1, eq_ix2 y⟩
  unfold reset2
  refine (step_at (iblk m c 0 ⟨n, h⟩) (iblk m c 1 ⟨n, h⟩) (k0_pay1 (F := Ideal)) r c').trans ?_
  rw [zero_block_at]
  unfold addend
  exact congrArg (0 + ·) (Finset.sum_congr rfl fun k _ =>
    congrArg₂ (· * ·) (left_block_at m c ⟨n, h⟩ r k) (right_block_at m c ⟨n, h⟩ c' k))

/-- What a later point leaves at an entry: what the point before left there plus the point's contribution. -/
theorem step2_at (c : Dev nD) (n : ℕ) (h : n < cfg0.N) (acc : Vec Ideal S2048x1024 .f32) (y : S2048x1024.Idx) :
    step2 m c n h acc y = acc y + addend m c n (y 0).val (y 1).val := by
  obtain ⟨r, c', rfl⟩ : ∃ (r : Fin 2048) (c' : Fin 1024), y = ix2 r c' := ⟨y 0, y 1, eq_ix2 y⟩
  unfold step2
  refine (step_at (iblk m c 0 ⟨n, h⟩) (iblk m c 1 ⟨n, h⟩) acc r c').trans ?_
  unfold addend
  exact congrArg (acc (ix2 r c') + ·) (Finset.sum_congr rfl fun k _ =>
    congrArg₂ (· * ·) (left_block_at m c ⟨n, h⟩ r k) (right_block_at m c ⟨n, h⟩ c' k))

/-- The fold of a run of eight points from `b`, at an entry: zero plus the eight points' contributions. -/
theorem fold_at (c : Dev nD) (b : ℕ) (h : b + 7 < cfg0.N) (y : S2048x1024.Idx) :
    Pipeline.accAt (reset2 m c) (step2 m c) b 7 h y
      = 0 + ∑ s ∈ Finset.range 8, addend m c (b + s) (y 0).val (y 1).val :=
  Pipeline.accAt_add_apply (ι := S2048x1024.Idx) (β := EReal) (reset2 m c) (step2 m c) (fun _ => 0)
    (fun n y => addend m c n (y 0).val (y 1).val) b 7
    (fun h y => reset_at m c b h y) (fun n h acc y _ _ => step2_at m c n h acc y) 7 le_rfl h y

/-- In the run of block (p / 2048, q / 1024) the point at step `s` contributes, at the place of entry `(p, q)`, the
    products of row `p` of the left array and row `q` of the right array over the columns `512·s … 512·s + 511`. -/
theorem addend_run (c : Dev nD) (p : Fin 8192) (q : Fin 4096) (s : ℕ) (hs : s < 8) :
    addend m c (8 * (4 * (p.val / 2048 - 0) + 1 * (q.val / 1024 - 0)) + s) (p.val % 2048) (q.val % 1024)
      = ∑ k : Fin 512, atNat 8192 4096 (m ((c : Thread nD τ).loc main_arg0)) p.val (512 * s + k.val)
          * atNat 4096 4096 (m ((c : Thread nD τ).loc main_arg1)) q.val (512 * s + k.val) := by
  have hp := p.isLt
  have hq := q.isLt
  unfold addend
  refine Finset.sum_congr rfl fun k _ => ?_
  have hk := k.isLt
  have e1 : (8 * (4 * (p.val / 2048 - 0) + 1 * (q.val / 1024 - 0)) + s) / 32 * 2048 + p.val % 2048 = p.val := by omega
  have e2 : (8 * (4 * (p.val / 2048 - 0) + 1 * (q.val / 1024 - 0)) + s) % 8 * 512 + k.val = 512 * s + k.val := by omega
  have e3 : (8 * (4 * (p.val / 2048 - 0) + 1 * (q.val / 1024 - 0)) + s) / 8 % 4 * 1024 + q.val % 1024 = q.val := by omega
  rw [e1, e2, e3]

end Cert.KernelIdeal.FoldAtIndex

end
-- ==== Proof.LibSumBlocks.lean ====
/-
  A sum over the first `a * b` naturals, cut into `a` consecutive blocks of `b` terms each.

  A contraction of depth `a * b` that is carried out `b` terms at a time — one partial sum per block, the partial
  sums then added up — meets every term exactly once: the term at `k` in block `k / b`, at place `k % b`. In a
  commutative monoid the two groupings have the same value; nothing else about the addition is used (in particular
  no cancellation, so the statement holds on the extended reals with their infinities).
-/
import Mathlib.Algebra.BigOperators.Fin
import Mathlib.Algebra.BigOperators.Intervals

namespace Cert.Lib.SumBlocks

open Finset

/-- The sum of `g` over `0 … a·b - 1` is the sum over the blocks `s < a` of the block's `b` terms `g (b·s + r)`, `r < b`. -/
theorem sum_range_mul_blocks {M : Type*} [AddCommMonoid M] (g : ℕ → M) (a b : ℕ) :
    ∑ k ∈ range (a * b), g k = ∑ s ∈ range a, ∑ r ∈ range b, g (b * s + r) := by
  induction a with
  | zero => simp
  | succ a ih =>
    rw [Nat.succ_mul, sum_range_add, ih, sum_range_succ, Nat.mul_comm a b]

/-- The same with the whole sum and each block's sum indexed by `Fin`: a `Fin (a·b)`-indexed sum of a function of the
    index's value is the sum over the blocks `s < a` of the `Fin b`-indexed sums of the block's terms. -/
theorem sum_fin_mul_blocks {M : Type*} [AddCommMonoid M] (g : ℕ → M) (a b : ℕ) :
    ∑ k : Fin (a * b), g k.val = ∑ s ∈ range a, ∑ r : Fin b, g (b * s + r.val) := by
  rw [Fin.sum_univ_eq_sum_range (fun k => g k) (a * b), sum_range_mul_blocks]
  exact sum_congr rfl fun s _ => (Fin.sum_univ_eq_sum_range (fun r => g (b * s + r)) b).symm

/-- The instance a depth-4096 contraction done in eight blocks of 512 needs, with the literal `4096` in the type. -/
theorem sum_fin_4096_blocks {M : Type*} [AddCommMonoid M] (g : ℕ → M) :
    ∑ k : Fin 4096, g k.val = ∑ s ∈ range 8, ∑ r : Fin 512, g (512 * s + r.val) :=
  sum_fin_mul_blocks g 8 512

end Cert.Lib.SumBlocks
-- ==== Proof.KernelAtIndex.lean ====
/-
  The kernel's result at an entry: the whole contraction.

  Entry `(p, q)` of the result lies in block (p / 2048, q / 1024), at place (p % 2048, q % 1024). The run of
  eight grid points that works on that block leaves there

      0 + Σ_{s < 8} Σ_{k < 512} x[p, 512·s + k] · w[q, 512·s + k]  =  Σ_{k < 4096} x[p, k] · w[q, k].

  The equality only regroups a sum in a commutative monoid, so it needs nothing of the entries — infinite ones
  included.
-/
import proofs.«135002_j68015102099869_2_alg».proof.Proof.FoldAtIndex
import proofs.«135002_j68015102099869_2_alg».proof.Proof.LibSumBlocks

noncomputable section

namespace Cert.KernelIdeal.KernelAtIndex

open Cert.KernelIdeal Cert.KernelIdeal.Gen Cert.KernelIdeal.Value Idealize.ShloMosaic Idealize.ShloMosaic.TcCoe Idealize.SL.Sem
open Idealize.ShloMosaic.ValueIdx Cert.KernelIdeal.BlocksAtIndex Cert.KernelIdeal.FoldAtIndex

variable (m : (ℓ : Loc nD τ sig) → Buf (Elt Ideal) ℓ)

/-- The two argument arrays on core `c`, as functions from their indices to the extended reals. -/
abbrev leftArr (c : Dev nD) : S8192x4096.Idx → EReal := m ((c : Thread nD τ).loc main_arg0)
abbrev rightArr (c : Dev nD) : S4096x4096.Idx → EReal := m ((c : Thread nD τ).loc main_arg1)
/-- The result array the run leaves on core `c` (the whole-array function of the value run), likewise. -/
abbrev resultArr (c : Dev nD) : S8192x4096.Idx → EReal := G2 m c

/-- The product at contraction position `j` of row `p` of the left array and row `q` of the right array (natural
    coordinates; zero outside the arrays). -/
def rowProduct (c : Dev nD) (p q j : ℕ) : EReal :=
  atNat 8192 4096 (leftArr m c) p j * atNat 4096 4096 (rightArr m c) q j

/-- In the run of block (p / 2048, q / 1024) the point at step `s` contributes, at the place of entry `(p, q)`, the
    products of row `p` of the left array and row `q` of the right array over the columns `512·s … 512·s + 511`. -/
theorem addend_run (c : Dev nD) (p : Fin 8192) (q : Fin 4096) (s : ℕ) (hs : s < 8) :
    addend m c (8 * run2Of (ix2 p q) + s) ((loc2Of (ix2 p q)) 0).val ((loc2Of (ix2 p q)) 1).val
      = ∑ k : Fin 512, rowProduct m c p.val q.val (512 * s + k.val) := by
  have hp := p.isLt
  have hq := q.isLt
  show addend m c (8 * (4 * (p.val / 2048 - 0) + 1 * (q.val / 1024 - 0)) + s) (p.val % 2048) (q.val % 1024) = _
  unfold addend rowProduct
  refine Finset.sum_congr rfl fun k _ => ?_
  have hk := k.isLt
  have e1 : (8 * (4 * (p.val / 2048 - 0) + 1 * (q.val / 1024 - 0)) + s) / 32 * 2048 + p.val % 2048 = p.val := by omega
  have e2 : (8 * (4 * (p.val / 2048 - 0) + 1 * (q.val / 1024 - 0)) + s) % 8 * 512 + k.val = 512 * s + k.val := by omega
  have e3 : (8 * (4 * (p.val / 2048 - 0) + 1 * (q.val / 1024 - 0)) + s) / 8 % 4 * 1024 + q.val % 1024 = q.val := by omega
  rw [e1, e2, e3]

/-- The run of the block holding entry `(p, q)` stays inside the grid. -/
theorem run_in_grid (p : Fin 8192) (q : Fin 4096) : 8 * run2Of (ix2 p q) + 7 < cfg0.N := by
  have hp := p.isLt
  have hq := q.isLt
  have hN : cfg0.N = 128 := N_0
  rw [hN]
  show 8 * (4 * (p.val / 2048 - 0) + 1 * (q.val / 1024 - 0)) + 7 < 128
  omega

/-- The whole-array function the run leaves is, at entry `(p, q)`, the fold of the entry's run at the entry's place. -/
theorem G2_at (c : Dev nD) (p : Fin 8192) (q : Fin 4096) :
    resultArr m c (ix2 p q)
      = Pipeline.accAt (reset2 m c) (step2 m c) (8 * run2Of (ix2 p q)) 7 (run_in_grid p q) (loc2Of (ix2 p q)) :=
  dif_pos (run_in_grid p q)

/-- … which is the sum over the eight steps of the step's 512 row products. -/
theorem G2_at_blocks (c : Dev nD) (p : Fin 8192) (q : Fin 4096) :
    resultArr m c (ix2 p q) = ∑ s ∈ Finset.range 8, ∑ k : Fin 512, rowProduct m c p.val q.val (512 * s + k.val) := by
  refine (G2_at m c p q).trans ?_
  rw [fold_at m c (8 * run2Of (ix2 p q)) (run_in_grid p q) (loc2Of (ix2 p q)), zero_add]
  exact Finset.sum_congr rfl fun s hs => addend_run m c p q s (Finset.mem_range.mp hs)

/-- THE KERNEL'S RESULT at entry `(p, q)`: the sum over all 4096 contraction positions of the left array's row `p`
    times the right array's row `q`. -/
theorem kernel_at (c : Dev nD) (p : Fin 8192) (q : Fin 4096) :
    resultArr m c (ix2 p q) = ∑ k : Fin 4096, leftArr m c (ix2 p k) * rightArr m c (ix2 q k) := by
  rw [G2_at_blocks, ← Cert.Lib.SumBlocks.sum_fin_4096_blocks (rowProduct m c p.val q.val)]
  refine Finset.sum_congr rfl fun k _ => ?_
  unfold rowProduct
  rw [atNat_val, atNat_val]

end Cert.KernelIdeal.KernelAtIndex

end
-- ==== Proof.RefAtIndex.lean ====
/-
  The reference's result at an entry.

  The reference is one `dot_general` of the [8192, 4096] array with the [4096, 4096] array, contracting the second
  axis of both (the einsum `bi,oi->bo`). With floats read as extended reals its entry `(p, q)` is the sum over the
  4096 contraction positions of the left array's row `p` times the right array's row `q`.
-/
import proofs.«135002_j68015102099869_2_alg».proof.Proof.Gen.ReferenceIdeal.Read
import Idealize.ShloMosaic.Lib.ValueIdx
import Idealize.ShloMosaic.PureOps.Ideal.Laws

noncomputable section

namespace Cert.ReferenceIdeal.RefAtIndex

open Cert.ReferenceIdeal Cert.ReferenceIdeal.Gen Cert.ReferenceIdeal.Read Idealize.ShloMosaic Idealize.ShloMosaic.ValueIdx

/-- The reference's contraction (the stage `val_main_v0`, which is the run's result term) at entry `(p, q)`:
    `Σ_{k < 4096} x[p, k] · w[q, k]`. -/
theorem reference_at (x : (⟨S8192x4096, .f32⟩ : BufTy).Contents (Elt Ideal)) (w : (⟨S4096x4096, .f32⟩ : BufTy).Contents (Elt Ideal))
    (p : Fin 8192) (q : Fin 4096) :
    val_main_v0 (F := Ideal) x w (ix2 p q) = ∑ k : Fin 4096, x (ix2 p k) * w (ix2 q k) := by
  rw [val_main_v0_apply]
  refine Finset.sum_congr rfl fun k _ => ?_
  have el : lidx_main_v0 (ix2 p q) k = ix2 p k :=
    funext fun a => Fin.ext (by match a with | ⟨0, _⟩ => rfl | ⟨1, _⟩ => rfl)
  have er : ridx_main_v0 (ix2 p q) k = ix2 q k :=
    funext fun a => Fin.ext (by match a with | ⟨0, _⟩ => rfl | ⟨1, _⟩ => rfl)
  rw [el, er]

end Cert.ReferenceIdeal.RefAtIndex

end
-- ==== Proof.lean ====
/-
  A tiled matrix product against one whole contraction.

  The kernel computes `out[b, o] = Σ_i x[b, i] · w[o, i]` for `x` of shape [8192, 4096] and `w` of shape
  [4096, 4096] on a 4 × 4 × 8 grid: the [2048, 1024] output block (row tile, column tile) is zeroed at the first of
  its eight contraction steps and at every step receives the product of a [2048, 512] block of `x` with a
  [1024, 512] block of `w` (both narrowed to bf16 first), accumulated in place; the block is written back after the
  eighth step. The reference is the single contraction `einsum('bi,oi->bo', x, w)`. A third argument, a bias vector,
  is read by neither program.

  With floats read as extended reals the narrowing is the identity and both products are exact sums of products, so
  entry `(p, q)` of the kernel's result is `0 + Σ_{s < 8} Σ_{k < 512} x[p, 512·s + k] · w[q, 512·s + k]` and the
  reference's is `Σ_{k < 4096} x[p, k] · w[q, k]`. The two differ only in how one sum is grouped, and addition of
  extended reals is commutative and associative at the infinities too: the precondition (finite inputs) is not used
  for the equality of the results.

  The pieces: one grid point's arithmetic at an entry (StepAtIndex), the two operands' blocks at a point read off
  the argument arrays (BlocksAtIndex), a run of eight points unrolled (FoldAtIndex), the regrouping of a sum of
  4096 terms into eight blocks of 512 (LibSumBlocks), the kernel's result at an entry (KernelAtIndex) and the
  reference's (RefAtIndex). The idealized kernel is the kernel's own text read over the extended reals (no
  operation was rewritten), so that conjunct is trivial; each program's run, with its arguments left unchanged, gives
  its frame conjunct.
-/
import proofs.«135002_j68015102099869_2_alg».proof.Defs
import proofs.«135002_j68015102099869_2_alg».proof.Proof.Gen.Kernel.Frame
import proofs.«135002_j68015102099869_2_alg».proof.Proof.Gen.KernelIdeal.Value
import proofs.«135002_j68015102099869_2_alg».proof.Proof.Gen.Pre_finite_inputs
import proofs.«135002_j68015102099869_2_alg».proof.Proof.Gen.ReferenceIdeal.Run
import proofs.«135002_j68015102099869_2_alg».proof.Proof.KernelAtIndex
import proofs.«135002_j68015102099869_2_alg».proof.Proof.RefAtIndex
import Idealize.ShloMosaic.Adequacy
import Idealize.ShloMosaic.Init

noncomputable section

namespace Cert.Proof

open Idealize.ShloMosaic Idealize.SL.Sem Idealize.ShloMosaic.ValueIdx

/-- The reference's result — the contraction of the two argument arrays — is the array the kernel's run leaves:
    at every entry `(p, q)` both are `Σ_{k < 4096} x[p, k] · w[q, k]`. -/
theorem result_eq (m : (ℓ : Loc Cert.KernelIdeal.nD Cert.KernelIdeal.τ Cert.KernelIdeal.sig) → Buf (Elt Ideal) ℓ)
    (c : Dev Cert.KernelIdeal.nD) :
    Cert.ReferenceIdeal.Read.val_main_v0 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Value.G2 m c := by
  refine funext fun (i : Cert.KernelIdeal.S8192x4096.Idx) => ?_
  obtain ⟨p, q, rfl⟩ : ∃ (p : Fin 8192) (q : Fin 4096), i = ix2 p q := ⟨i 0, i 1, eq_ix2 i⟩
  exact (Cert.ReferenceIdeal.RefAtIndex.reference_at
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) p q).trans
    (Cert.KernelIdeal.KernelAtIndex.kernel_at m c p q).symm

/-- The idealized kernel runs and leaves its arguments as they were: its value run, with the result dropped. -/
theorem frame_KernelIdeal : frame_KernelIdeal := fun m ρ _ =>
  (θ_run Cert.KernelIdeal.defs _ _).mono (fun _ h c => (h c).2) (Cert.KernelIdeal.Value.run (F := Ideal) m ρ)

/-- The idealized reference runs and leaves its arguments as they were: its run, with the result dropped. -/
theorem frame_ReferenceIdeal : frame_ReferenceIdeal := fun m ρ _ =>
  (θ_run Cert.ReferenceIdeal.defs _ _).mono (fun _ h c => (h c).2) (Cert.ReferenceIdeal.Value.run (F := Ideal) m ρ)

/-- From memories that agree on the arguments the two idealized programs end with equal results: the kernel's run
    leaves the whole-array function of its arguments, the reference's run the contraction of its own, and on
    agreeing arguments these are one array (`result_eq`). -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  exact result_eq m c

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
